-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50x64 : Shape := ⟨2, ![50, 64]⟩
abbrev S128x64 : Shape := ⟨2, ![128, 64]⟩
abbrev S1000000 : Shape := ⟨1, ![1000000]⟩
abbrev S2000000 : Shape := ⟨1, ![2000000]⟩
abbrev S_ : Shape := ⟨0, ![]⟩

class Facts : Prop where
  bcast_S_S50x64 : S_.BroadcastsInDim S50x64 (![] : Fin 0 → Fin S50x64.rank)
  reducesTo_S50x64_S_d0_1 : S50x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S50x64 .f32) (main_arg1 : FVec F S128x64 .f32) (main_arg2 : FVec F S128x64 .f32) (main_arg3 : IVec S1000000 32) (main_arg4 : IVec S1000000 32) (main_arg5 : IVec S1000000 32) (main_arg6 : IVec S2000000 32) (main_arg7 : IVec S2000000 32) (main_arg8 : IVec S2000000 32) : IVec S_ 1 :=
  let main_v0 : FVec F S50x64 .f32 := Host.absf main_arg0
  let main_cst : FVec F S_ .f32 := constant S_ .f32 0x7F800000#32
  let main_v1 : FVec F S50x64 .f32 := broadcastInDim S50x64 ![] bcast_S_S50x64 main_cst
  let main_v2 : IVec S50x64 1 := cmpf .olt main_v0 main_v1
  let main_c : IVec S_ 1 := constantI S_ 1 1#1
  let main_v3 : IVec S_ 1 := (fun x v => Host.reduce IntOp.andi x v reducesTo_S50x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S50x64 : Shape := ⟨2, ![50, 64]⟩
abbrev S128x64 : Shape := ⟨2, ![128, 64]⟩
abbrev S1000000 : Shape := ⟨1, ![1000000]⟩
abbrev S2000000 : Shape := ⟨1, ![2000000]⟩
abbrev S_ : Shape := ⟨0, ![]⟩
abbrev S1000000x1 : Shape := ⟨2, ![1000000, 1]⟩
abbrev S1000000x64 : Shape := ⟨2, ![1000000, 64]⟩
abbrev S2000000x1 : Shape := ⟨2, ![2000000, 1]⟩
abbrev S2000000x64 : Shape := ⟨2, ![2000000, 64]⟩
abbrev S2000000x128 : Shape := ⟨2, ![2000000, 128]⟩
abbrev S40000x128 : Shape := ⟨2, ![40000, 128]⟩
abbrev S40000x64 : Shape := ⟨2, ![40000, 64]⟩
abbrev S1000000x128 : Shape := ⟨2, ![1000000, 128]⟩
abbrev S20000x128 : Shape := ⟨2, ![20000, 128]⟩
abbrev S20000x64 : Shape := ⟨2, ![20000, 64]⟩

abbrev nBuf : Space → Nat
  | .hbm => 49
  | .vmem => 10
  | .smem => 0
  | _ => 0

abbrev bufTy : (tb : Table) → Fin (tcTables nBuf tb) → BufTy
  | .hbm, ⟨0, _⟩ => ⟨S50x64, .f32⟩
  | .hbm, ⟨1, _⟩ => ⟨S128x64, .f32⟩
  | .hbm, ⟨2, _⟩ => ⟨S128x64, .f32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S2000000, .i32⟩
  | .hbm, ⟨7, _⟩ => ⟨S2000000, .i32⟩
  | .hbm, ⟨8, _⟩ => ⟨S2000000, .i32⟩
  | .hbm, ⟨9, _⟩ => ⟨S50x64, .bf16⟩
  | .hbm, ⟨10, _⟩ => ⟨S128x64, .bf16⟩
  | .hbm, ⟨11, _⟩ => ⟨S128x64, .bf16⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .bf16⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x64, .bf16⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x64, .bf16⟩
  | .hbm, ⟨39, _⟩ => ⟨S2000000x128, .bf16⟩
  | .hbm, ⟨40, _⟩ => ⟨S2000000x64, .bf16⟩
  | .hbm, ⟨41, _⟩ => ⟨S2000000x64, .f32⟩
  | .hbm, ⟨42, _⟩ => ⟨S_, .f32⟩
  | .hbm, ⟨43, _⟩ => ⟨S1000000x64, .f32⟩
  | .hbm, ⟨44, _⟩ => ⟨S2000000x1, .i32⟩
  | .hbm, ⟨45, _⟩ => ⟨S1000000x64, .f32⟩
  | .hbm, ⟨46, _⟩ => ⟨S1000000x64, .bf16⟩
  | .hbm, ⟨47, _⟩ => ⟨S1000000x128, .bf16⟩
  | .hbm, ⟨48, _⟩ => ⟨S1000000x64, .f32⟩
  | .local _ .vmem, ⟨0, _⟩ => ⟨S40000x128, .bf16⟩
  | .local _ .vmem, ⟨1, _⟩ => ⟨S40000x128, .bf16⟩
  | .local _ .vmem, ⟨2, _⟩ => ⟨S128x64, .bf16⟩
  | .local _ .vmem, ⟨3, _⟩ => ⟨S40000x64, .bf16⟩
  | .local _ .vmem, ⟨4, _⟩ => ⟨S40000x64, .bf16⟩
  | .local _ .vmem, ⟨5, _⟩ => ⟨S20000x128, .bf16⟩
  | .local _ .vmem, ⟨6, _⟩ => ⟨S20000x128, .bf16⟩
  | .local _ .vmem, ⟨7, _⟩ => ⟨S128x64, .bf16⟩
  | .local _ .vmem, ⟨8, _⟩ => ⟨S20000x64, .f32⟩
  | .local _ .vmem, ⟨9, _⟩ => ⟨S20000x64, .f32⟩
  | _, _ => ⟨S50x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S40000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x64_S2000000x128_d1 : Shape.Concatenates [S2000000x64, S2000000x64] S2000000x128 1
  inb_S40000x128_S40000x128_0_0 : ∀ a, (![0, 0] : Fin 2 → Nat) a + S40000x128.size a ≤ S40000x128.size a
  h_S40000x128 : 0 < S40000x128.numel
  shapeCasts_S40000x128_S40000x128 : S40000x128.ShapeCasts S40000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S40000x64_S40000x64_0_0 : ∀ a, (![0, 0] : Fin 2 → Nat) a + S40000x64.size a ≤ S40000x64.size a
  h_S40000x64 : 0 < S40000x64.numel
  packedbf16_S40000x64_S40000x64_0_0 : (Rect.unit (s := S40000x64) ![0, 0] S40000x64.size inb_S40000x64_S40000x64_0_0).PackedRows (EltTy.packing .bf16)
  bcast_S_S1000000x64 : S_.BroadcastsInDim S1000000x64 (![] : Fin 0 → Fin S1000000x64.rank)
  concatenates_S1000000x64_S1000000x64_S1000000x128_d1 : Shape.Concatenates [S1000000x64, S1000000x64] S1000000x128 1
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S20000x64_S20000x64_0_0 : ∀ a, (![0, 0] : Fin 2 → Nat) a + S20000x64.size a ≤ S20000x64.size a
  h_S20000x64 : 0 < S20000x64.numel
  gather_S50x64_S1000000x1_S1000000x64_1_0_n_n_0_1_164_wf : GatherDims.WF S50x64 S1000000x1 S1000000x64 [1] [0] [] [0] [] 1 ![1, 64]
  gather_S1000000x64_S2000000x1_S2000000x64_1_0_n_n_0_1_164_wf : GatherDims.WF S1000000x64 S2000000x1 S2000000x64 [1] [0] [] [0] [] 1 ![1, 64]
  dot_S40000x128_S128x64_S40000x64_1_0_0_1_n_n_wf : DotDims.WF S40000x128 S128x64 S40000x64 [1] [0] [0] [1] [] []
  scatter_S1000000x64_S2000000x1_S2000000x64_1_0_0_1_wf : ScatterDims.WF S1000000x64 S2000000x1 S2000000x64 [1] [0] [0] 1
  dot_S20000x128_S128x64_S20000x64_1_0_0_1_n_n_wf : DotDims.WF S20000x128 S128x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40000x128.size a ≤ S2000000x128.size a
  hwx0_0 : ∀ i : grid0.Coords, EltTy.bits .bf16 = 32 ∨ (Rect.block (s := S2000000x128) S40000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40000x64.size a ≤ S2000000x64.size a
  hwx0_2 : ∀ i : grid0.Coords, EltTy.bits .bf16 = 32 ∨ (Rect.block (s := S2000000x64) S40000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S1000000x128.size a
  hwx1_0 : ∀ i : grid1.Coords, EltTy.bits .bf16 = 32 ∨ (Rect.block (s := S1000000x128) S20000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S1000000x64.size a
  hwx1_2 : ∀ i : grid1.Coords, EltTy.bits .f32 = 32 ∨ (Rect.block (s := S1000000x64) S20000x64.size (cc1_transform_2 i) (hinb1_2 i)).WholeWords (EltTy.packing .f32)

variable [Facts₀]

def gather_S50x64_S1000000x1_S1000000x64_1_0_n_n_0_1_164 : GatherDims S50x64 S1000000x1 S1000000x64 where
  offsetDims := [1]
  collapsedSliceDims := [0]
  operandBatchingDims := []
  startIndicesBatchingDims := []
  startIndexMap := [0]
  indexVectorDim := 1
  sliceSizes := ![1, 64]
  wf := gather_S50x64_S1000000x1_S1000000x64_1_0_n_n_0_1_164_wf
def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def scatter_S1000000x64_S2000000x1_S2000000x64_1_0_0_1 : ScatterDims S1000000x64 S2000000x1 S2000000x64 where
  updateWindowDims := [1]
  insertedWindowDims := [0]
  scatterDimsToOperandDims := [0]
  indexVectorDim := 1
  wf := scatter_S1000000x64_S2000000x1_S2000000x64_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

abbrev win0_0 : Pipeline.Window sig grid0 :=
  Pipeline.Window.ofSpec (Memref.whole main_v24) S40000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S40000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50x64 : Shape := ⟨2, ![50, 64]⟩
abbrev S128x64 : Shape := ⟨2, ![128, 64]⟩
abbrev S1000000 : Shape := ⟨1, ![1000000]⟩
abbrev S2000000 : Shape := ⟨1, ![2000000]⟩
abbrev S_ : Shape := ⟨0, ![]⟩
abbrev S1000000x1 : Shape := ⟨2, ![1000000, 1]⟩
abbrev S1000000x64 : Shape := ⟨2, ![1000000, 64]⟩
abbrev S2000000x1 : Shape := ⟨2, ![2000000, 1]⟩
abbrev S2000000x64 : Shape := ⟨2, ![2000000, 64]⟩
abbrev S2000000x128 : Shape := ⟨2, ![2000000, 128]⟩
abbrev S1000000x128 : Shape := ⟨2, ![1000000, 128]⟩

abbrev nBuf : Space → Nat
  | .hbm => 50
  | .vmem => 0
  | .smem => 0
  | _ => 0

abbrev bufTy : (tb : Table) → Fin (tcTables nBuf tb) → BufTy
  | .hbm, ⟨0, _⟩ => ⟨S50x64, .f32⟩
  | .hbm, ⟨1, _⟩ => ⟨S128x64, .f32⟩
  | .hbm, ⟨2, _⟩ => ⟨S128x64, .f32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S2000000, .i32⟩
  | .hbm, ⟨7, _⟩ => ⟨S2000000, .i32⟩
  | .hbm, ⟨8, _⟩ => ⟨S2000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S2000000, .i32⟩
  | .hbm, ⟨25, _⟩ => ⟨S2000000x1, .i32⟩
  | .hbm, ⟨26, _⟩ => ⟨S2000000x64, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x64, .f32⟩
  | .hbm, ⟨36, _⟩ => ⟨S2000000x128, .f32⟩
  | .hbm, ⟨37, _⟩ => ⟨S2000000x64, .f32⟩
  | .hbm, ⟨38, _⟩ => ⟨S_, .f32⟩
  | .hbm, ⟨39, _⟩ => ⟨S2000000x64, .f32⟩
  | .hbm, ⟨40, _⟩ => ⟨S2000000x64, .f32⟩
  | .hbm, ⟨41, _⟩ => ⟨S_, .f32⟩
  | .hbm, ⟨42, _⟩ => ⟨S1000000x64, .f32⟩
  | .hbm, ⟨43, _⟩ => ⟨S2000000x1, .i32⟩
  | .hbm, ⟨44, _⟩ => ⟨S1000000x64, .f32⟩
  | .hbm, ⟨45, _⟩ => ⟨S1000000x128, .f32⟩
  | .hbm, ⟨46, _⟩ => ⟨S1000000x64, .f32⟩
  | .hbm, ⟨47, _⟩ => ⟨S_, .f32⟩
  | .hbm, ⟨48, _⟩ => ⟨S1000000x64, .f32⟩
  | .hbm, ⟨49, _⟩ => ⟨S1000000x64, .f32⟩
  | _, _ => ⟨S50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x64_S2000000x128_d1 : Shape.Concatenates [S2000000x64, S2000000x64] S2000000x128 1
  bcast_S_S2000000x64 : S_.BroadcastsInDim S2000000x64 (![] : Fin 0 → Fin S2000000x64.rank)
  bcast_S_S1000000x64 : S_.BroadcastsInDim S1000000x64 (![] : Fin 0 → Fin S1000000x64.rank)
  concatenates_S1000000x64_S1000000x64_S1000000x128_d1 : Shape.Concatenates [S1000000x64, S1000000x64] S1000000x128 1
  gather_S50x64_S1000000x1_S1000000x64_1_0_n_n_0_1_164_wf : GatherDims.WF S50x64 S1000000x1 S1000000x64 [1] [0] [] [0] [] 1 ![1, 64]
  gather_S1000000x64_S2000000x1_S2000000x64_1_0_n_n_0_1_164_wf : GatherDims.WF S1000000x64 S2000000x1 S2000000x64 [1] [0] [] [0] [] 1 ![1, 64]
  dot_S2000000x128_S128x64_S2000000x64_1_0_0_1_n_n_wf : DotDims.WF S2000000x128 S128x64 S2000000x64 [1] [0] [0] [1] [] []
  scatter_S1000000x64_S2000000x1_S2000000x64_1_0_0_1_wf : ScatterDims.WF S1000000x64 S2000000x1 S2000000x64 [1] [0] [0] 1
  dot_S1000000x128_S128x64_S1000000x64_1_0_0_1_n_n_wf : DotDims.WF S1000000x128 S128x64 S1000000x64 [1] [0] [0] [1] [] []

variable [Facts₀]

def gather_S50x64_S1000000x1_S1000000x64_1_0_n_n_0_1_164 : GatherDims S50x64 S1000000x1 S1000000x64 where
  offsetDims := [1]
  collapsedSliceDims := [0]
  operandBatchingDims := []
  startIndicesBatchingDims := []
  startIndexMap := [0]
  indexVectorDim := 1
  sliceSizes := ![1, 64]
  wf := gather_S50x64_S1000000x1_S1000000x64_1_0_n_n_0_1_164_wf
def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def scatter_S1000000x64_S2000000x1_S2000000x64_1_0_0_1 : ScatterDims S1000000x64 S2000000x1 S2000000x64 where
  updateWindowDims := [1]
  insertedWindowDims := [0]
  scatterDimsToOperandDims := [0]
  indexVectorDim := 1
  wf := scatter_S1000000x64_S2000000x1_S2000000x64_1_0_0_1_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.ResultRun.lean ====
/-
  The idealized kernel's run with its result array named.

  The program is two tiled regions among host operations. Its buffers' contents at the four segment
  boundaries are a fold from the launch memory: after the first host stretch, after region 0 (its output
  array at what the write-backs leave, every other buffer as entered), after the second host stretch,
  after region 1. Every weakly fair execution terminates in a state whose unscoped buffers hold the last
  fold; read at the result buffer this names the result, and read at the arguments it gives them back
  unchanged.
-/
import proofs.«155682_j11003706213189_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the
    last boundary's contents and every argument as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.ResultRun

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.Region0Value.lean ====
/-
  Region 0 as one whole-array function.

  The region tiles the rows of its `[2000000, 128]` operand into 50 blocks of 40000 rows; at every grid point the body
  multiplies the point's row block with the whole `[128, 64]` weight on the matrix unit (into a zero
  accumulator), takes the maximum with zero and stores the `[40000, 64]` result block, which is written back to
  rows `40000·t … 40000·t + 39999` of the output. At the ideal values the entry `(p, q)` of a block's product is
  `∑ k, X (40000·t + p, k) · W (k, q)`, which is the entry `(40000·t + p, q)` of the ONE product of the whole operand
  with the weight; the blocks cover every row; so the output array ends holding `max (X · W) 0` — the host's
  `dot_general` followed by its maximum with the zero splat — of the operand arrays as the region finds them.
-/
import proofs.«155682_j11003706213189_1_alg».proof.Proof.Gen.KernelIdeal.Frame
import proofs.«155682_j11003706213189_1_alg».proof.Proof.Gen.ReferenceIdeal.Read
import proofs.«155682_j11003706213189_1_alg».proof.Proof.LibRowColDot
import Idealize.ShloMosaic.Lib.Pipeline.Value
import Idealize.ShloMosaic.Lib.ValueIdx
import Idealize.ShloMosaic.PureOps.Ideal.Laws

set_option maxRecDepth 16384

noncomputable section

namespace Cert.KernelIdeal.Tiles0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The host's product of an `[2000000, 128]` array with a `[128, 64]` weight followed by the maximum with the zero
    splat, as the reference program spells it. -/
def reluDot (X : FVec Ideal Cert.ReferenceIdeal.S2000000x128 .f32) (W : FVec Ideal Cert.ReferenceIdeal.S128x64 .f32) :
    FVec Ideal Cert.ReferenceIdeal.S2000000x64 .f32 :=
  maximumf (Host.dotGeneral Cert.ReferenceIdeal.dot_S2000000x128_S128x64_S2000000x64_1_0_0_1_n_n none X W)
    (broadcastInDim Cert.ReferenceIdeal.S2000000x64 ![] Cert.ReferenceIdeal.Facts₀.bcast_S_S2000000x64 (constant Cert.ReferenceIdeal.S_ .f32 0x00000000#32))

/-- The block product's left operand index keeps the output's row. -/
theorem tile_lhs0 (i : S40000x64.Idx) (q : dot_S40000x128_S128x64_S40000x64_1_0_0_1_n_n.contr.Idx) :
    (dot_S40000x128_S128x64_S40000x64_1_0_0_1_n_n.lhsIdx i q 0).val = (i 0).val := by
  unfold DotDims.lhsIdx
  rw [dif_neg (show ¬(0 : Fin S40000x128.rank) ∈ dot_S40000x128_S128x64_S40000x64_1_0_0_1_n_n.lhsBatch by decide), dif_pos (show (0 : Fin S40000x128.rank) ∈ dot_S40000x128_S128x64_S40000x64_1_0_0_1_n_n.lhsNonContracting by decide)]
  rfl
/-- The block product's right operand index keeps the output's column. -/
theorem tile_rhs1 (i : S40000x64.Idx) (q : dot_S40000x128_S128x64_S40000x64_1_0_0_1_n_n.contr.Idx) :
    (dot_S40000x128_S128x64_S40000x64_1_0_0_1_n_n.rhsIdx i q 1).val = (i 1).val := by
  unfold DotDims.rhsIdx
  rw [dif_neg (show ¬(1 : Fin S128x64.rank) ∈ dot_S40000x128_S128x64_S40000x64_1_0_0_1_n_n.rhsBatch by decide), dif_pos (show (1 : Fin S128x64.rank) ∈ dot_S40000x128_S128x64_S40000x64_1_0_0_1_n_n.rhsNonContracting by decide)]
  rfl

/-- ONE BLOCK. The body's stored value at a block index `j`, when its two loaded blocks are the whole arrays `X`, `W`
    read through maps `e0`, `e1` that shift the rows by `r` and keep everything else, is the whole-array function at
    `e2 j`, the block index shifted the same way: both are `max (∑ k, X (r + j 0, k) · W (k, j 1)) 0`. -/
theorem tile_apply (X : FVec Ideal S2000000x128 .bf16) (W : FVec Ideal S128x64 .bf16)
    (e0 : S40000x128.Idx → S2000000x128.Idx) (e1 : S128x64.Idx → S128x64.Idx) (e2 : S40000x64.Idx → S2000000x64.Idx) (r : ℕ)
    (h00 : ∀ y, (e0 y 0).val = r + (y 0).val) (h01 : ∀ y, (e0 y 1).val = (y 1).val)
    (h10 : ∀ y, (e1 y 0).val = (y 0).val) (h11 : ∀ y, (e1 y 1).val = (y 1).val)
    (h20 : ∀ y, (e2 y 0).val = r + (y 0).val) (h21 : ∀ y, (e2 y 1).val = (y 1).val) (j : S40000x64.Idx) :
    k0_pay1 (F := Ideal) (fun y => X (e0 y)) (fun y => W (e1 y)) j = reluDot X W (e2 j) := by
  unfold k0_pay1 reluDot
  rw [shapeCast_self, shapeCast_self]
  show FloatOps.maximumf (F := Ideal) (φ := .f32) (matmul dot_S40000x128_S128x64_S40000x64_1_0_0_1_n_n none (fun y => X (e0 y)) (fun y => W (e1 y)) (constant S40000x64 .f32 0x00000000#32) j) (Ideal.ofBits .f32 0x00000000#32)
    = FloatOps.maximumf (F := Ideal) (φ := .f32) (Host.dotGeneral Cert.ReferenceIdeal.dot_S2000000x128_S128x64_S2000000x64_1_0_0_1_n_n none X W (e2 j)) (Ideal.ofBits .f32 0x00000000#32)
  refine congrArg (fun v => FloatOps.maximumf (F := Ideal) (φ := .f32) v (Ideal.ofBits .f32 0x00000000#32)) ?_
  rw [Cert.RowColDot.matmul_rowcol _ rfl rfl rfl rfl tile_lhs0 tile_rhs1,
    Cert.RowColDot.hostDot_rowcol _ rfl rfl rfl rfl Cert.ReferenceIdeal.Read.lhs_main_v22_0 Cert.ReferenceIdeal.Read.rhs_main_v22_1]
  refine Finset.sum_congr rfl fun k _ => ?_
  have eL : e0 (ix2 (j 0) k) = ix2 (e2 j 0) k := funext fun x => Fin.ext (by
    match x with
    | ⟨0, _⟩ => show (e0 (ix2 (j 0) k) 0).val = (e2 j 0).val; rw [h00, h20]
    | ⟨1, _⟩ => show (e0 (ix2 (j 0) k) 1).val = k.val; rw [h01])
  have eR : e1 (ix2 k (j 1)) = ix2 k (e2 j 1) := funext fun x => Fin.ext (by
    match x with
    | ⟨0, _⟩ => show (e1 (ix2 k (j 1)) 0).val = k.val; rw [h10]
    | ⟨1, _⟩ => show (e1 (ix2 k (j 1)) 1).val = (e2 j 1).val; rw [h11, h21])
  rw [eL, eR]
  all_goals rfl

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row operand's and the output's block row is the point, every other
    block coordinate is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole-array function of the operand arrays as the region finds them. -/
theorem flushed_eq (c : Dev nD) (t : Fin cfg0.N) :
    (dat0 V c).flushed 2 t = ((cfg0.win 2).blk t).view.read (Elt Ideal) (reluDot (V c main_v24) (V c main_v1)) := by
  show (cfg0.win 2).cut (grid0.coords t) ((dat0 V c).after 2 t) = _
  rw [after0_2]
  unfold out0_2
  rw [View.canon_unit_zero zero_offsets]
  simp only [View.ld_unit_zero (S := S40000x128) zero_offsets, View.ld_unit_zero (S := S128x64) zero_offsets]
  obtain ⟨e0, e1, e2, e3, e4, e5⟩ := idx_facts t
  funext j
  exact tile_apply (V c main_v24) (V c main_v1) (((cfg0.win 0).blk t).view.emb) (((cfg0.win 1).blk t).view.emb)
    (((cfg0.win 2).blk t).view.emb) (t.val * 40000)
    (fun y => by show win0_0.index t (0 : Fin 2) * 40000 + 1 * (y 0).val = _; omega)
    (fun y => by show win0_0.index t (1 : Fin 2) * 128 + 1 * (y 1).val = _; omega)
    (fun y => by show win0_1.index t (0 : Fin 2) * 128 + 1 * (y 0).val = _; omega)
    (fun y => by show win0_1.index t (1 : Fin 2) * 64 + 1 * (y 1).val = _; omega)
    (fun y => by show win0_2.index t (0 : Fin 2) * 40000 + 1 * (y 0).val = _; omega)
    (fun y => by show win0_2.index t (1 : Fin 2) * 64 + 1 * (y 1).val = _; omega) j

/-- An index of the output array is in point `t`'s block iff each coordinate is in the block's range on its axis. -/
theorem mem_blk (t : Fin cfg0.N) (i : S2000000x64.Idx) :
    i ∈ ((cfg0.win 2).blk t).view.set ↔ ∀ a : Fin 2, win0_2.index t a * S40000x64.size a ≤ (i a).val ∧ (i a).val < win0_2.index t a * S40000x64.size a + S40000x64.size a := by
  show i ∈ ((View.whole main_v25).slice (win0_2.rect t)).set ↔ _
  rw [View.set_slice_whole, Rect.mem_set_unit]
  exact Iff.rfl

/-- Every row of the output lies in the block of the point `row / 40000`. -/
theorem cover (i : S2000000x64.Idx) : ∃ t : Fin cfg0.N, (cfg0.win 2).flush t = true ∧ i ∈ ((cfg0.win 2).blk t).view.set := by
  have hi0 : (i 0).val < 2000000 := (i 0).isLt
  have hi1 : (i 1).val < 64 := (i 1).isLt
  have hN : grid0.N = 50 := N_0
  obtain ⟨t, ht⟩ : ∃ t : Fin cfg0.N, t.val = (i 0).val / 40000 := ⟨⟨(i 0).val / 40000, by show _ < grid0.N; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 40000 ≤ (i 0).val ∧ (i 0).val < win0_2.index t (0 : Fin 2) * 40000 + 40000; omega
  | ⟨1, _⟩ => show win0_2.index t (1 : Fin 2) * 64 ≤ (i 1).val ∧ (i 1).val < win0_2.index t (1 : Fin 2) * 64 + 64; omega

/-- THE OUTPUT ARRAY after the region: the whole-array function of the operand arrays as the region finds them. -/
theorem final (c : Dev nD) : (dat0 V c).arrAt 2 cfg0.N = reluDot (V c main_v24) (V c main_v1) :=
  (dat0 V c).arrAt_eq_of_cover 2 _ (fun t _ => flushed_eq V c t) cover

end Cert.KernelIdeal.Tiles0

end
-- ==== Proof.Region1Value.lean ====
/-
  Region 1 as one whole-array function.

  The region tiles the rows of its `[1000000, 128]` operand into 50 blocks of 20000 rows; at every grid point the body
  multiplies the point's row block with the whole `[128, 64]` weight on the matrix unit (into a zero
  accumulator), takes the maximum with zero and stores the `[20000, 64]` result block, which is written back to
  rows `20000·t … 20000·t + 19999` of the output. At the ideal values the entry `(p, q)` of a block's product is
  `∑ k, X (20000·t + p, k) · W (k, q)`, which is the entry `(20000·t + p, q)` of the ONE product of the whole operand
  with the weight; the blocks cover every row; so the output array ends holding `max (X · W) 0` — the host's
  `dot_general` followed by its maximum with the zero splat — of the operand arrays as the region finds them.
-/
import proofs.«155682_j11003706213189_1_alg».proof.Proof.Gen.KernelIdeal.Frame
import proofs.«155682_j11003706213189_1_alg».proof.Proof.Gen.ReferenceIdeal.Read
import proofs.«155682_j11003706213189_1_alg».proof.Proof.LibRowColDot
import Idealize.ShloMosaic.Lib.Pipeline.Value
import Idealize.ShloMosaic.Lib.ValueIdx
import Idealize.ShloMosaic.PureOps.Ideal.Laws

set_option maxRecDepth 16384

noncomputable section

namespace Cert.KernelIdeal.Tiles1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The host's product of an `[1000000, 128]` array with a `[128, 64]` weight followed by the maximum with the zero
    splat, as the reference program spells it. -/
def reluDot (X : FVec Ideal Cert.ReferenceIdeal.S1000000x128 .f32) (W : FVec Ideal Cert.ReferenceIdeal.S128x64 .f32) :
    FVec Ideal Cert.ReferenceIdeal.S1000000x64 .f32 :=
  maximumf (Host.dotGeneral Cert.ReferenceIdeal.dot_S1000000x128_S128x64_S1000000x64_1_0_0_1_n_n none X W)
    (broadcastInDim Cert.ReferenceIdeal.S1000000x64 ![] Cert.ReferenceIdeal.Facts₀.bcast_S_S1000000x64 (constant Cert.ReferenceIdeal.S_ .f32 0x00000000#32))

/-- The block product's left operand index keeps the output's row. -/
theorem tile_lhs0 (i : S20000x64.Idx) (q : dot_S20000x128_S128x64_S20000x64_1_0_0_1_n_n.contr.Idx) :
    (dot_S20000x128_S128x64_S20000x64_1_0_0_1_n_n.lhsIdx i q 0).val = (i 0).val := by
  unfold DotDims.lhsIdx
  rw [dif_neg (show ¬(0 : Fin S20000x128.rank) ∈ dot_S20000x128_S128x64_S20000x64_1_0_0_1_n_n.lhsBatch by decide), dif_pos (show (0 : Fin S20000x128.rank) ∈ dot_S20000x128_S128x64_S20000x64_1_0_0_1_n_n.lhsNonContracting by decide)]
  rfl
/-- The block product's right operand index keeps the output's column. -/
theorem tile_rhs1 (i : S20000x64.Idx) (q : dot_S20000x128_S128x64_S20000x64_1_0_0_1_n_n.contr.Idx) :
    (dot_S20000x128_S128x64_S20000x64_1_0_0_1_n_n.rhsIdx i q 1).val = (i 1).val := by
  unfold DotDims.rhsIdx
  rw [dif_neg (show ¬(1 : Fin S128x64.rank) ∈ dot_S20000x128_S128x64_S20000x64_1_0_0_1_n_n.rhsBatch by decide), dif_pos (show (1 : Fin S128x64.rank) ∈ dot_S20000x128_S128x64_S20000x64_1_0_0_1_n_n.rhsNonContracting by decide)]
  rfl

/-- ONE BLOCK. The body's stored value at a block index `j`, when its two loaded blocks are the whole arrays `X`, `W`
    read through maps `e0`, `e1` that shift the rows by `r` and keep everything else, is the whole-array function at
    `e2 j`, the block index shifted the same way: both are `max (∑ k, X (r + j 0, k) · W (k, j 1)) 0`. -/
theorem tile_apply (X : FVec Ideal S1000000x128 .bf16) (W : FVec Ideal S128x64 .bf16)
    (e0 : S20000x128.Idx → S1000000x128.Idx) (e1 : S128x64.Idx → S128x64.Idx) (e2 : S20000x64.Idx → S1000000x64.Idx) (r : ℕ)
    (h00 : ∀ y, (e0 y 0).val = r + (y 0).val) (h01 : ∀ y, (e0 y 1).val = (y 1).val)
    (h10 : ∀ y, (e1 y 0).val = (y 0).val) (h11 : ∀ y, (e1 y 1).val = (y 1).val)
    (h20 : ∀ y, (e2 y 0).val = r + (y 0).val) (h21 : ∀ y, (e2 y 1).val = (y 1).val) (j : S20000x64.Idx) :
    k1_pay1 (F := Ideal) (fun y => X (e0 y)) (fun y => W (e1 y)) j = reluDot X W (e2 j) := by
  unfold k1_pay1 reluDot
  rw [shapeCast_self, shapeCast_self]
  show FloatOps.maximumf (F := Ideal) (φ := .f32) (matmul dot_S20000x128_S128x64_S20000x64_1_0_0_1_n_n none (fun y => X (e0 y)) (fun y => W (e1 y)) (constant S20000x64 .f32 0x00000000#32) j) (Ideal.ofBits .f32 0x00000000#32)
    = FloatOps.maximumf (F := Ideal) (φ := .f32) (Host.dotGeneral Cert.ReferenceIdeal.dot_S1000000x128_S128x64_S1000000x64_1_0_0_1_n_n none X W (e2 j)) (Ideal.ofBits .f32 0x00000000#32)
  refine congrArg (fun v => FloatOps.maximumf (F := Ideal) (φ := .f32) v (Ideal.ofBits .f32 0x00000000#32)) ?_
  rw [Cert.RowColDot.matmul_rowcol _ rfl rfl rfl rfl tile_lhs0 tile_rhs1,
    Cert.RowColDot.hostDot_rowcol _ rfl rfl rfl rfl Cert.ReferenceIdeal.Read.lhs_main_v28_0 Cert.ReferenceIdeal.Read.rhs_main_v28_1]
  refine Finset.sum_congr rfl fun k _ => ?_
  have eL : e0 (ix2 (j 0) k) = ix2 (e2 j 0) k := funext fun x => Fin.ext (by
    match x with
    | ⟨0, _⟩ => show (e0 (ix2 (j 0) k) 0).val = (e2 j 0).val; rw [h00, h20]
    | ⟨1, _⟩ => show (e0 (ix2 (j 0) k) 1).val = k.val; rw [h01])
  have eR : e1 (ix2 k (j 1)) = ix2 k (e2 j 1) := funext fun x => Fin.ext (by
    match x with
    | ⟨0, _⟩ => show (e1 (ix2 k (j 1)) 0).val = k.val; rw [h10]
    | ⟨1, _⟩ => show (e1 (ix2 k (j 1)) 1).val = (e2 j 1).val; rw [h11, h21])
  rw [eL, eR]
  all_goals rfl

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row operand's and the output's block row is the point, every other
    block coordinate is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole-array function of the operand arrays as the region finds them. -/
theorem flushed_eq (c : Dev nD) (t : Fin cfg1.N) :
    (dat1 V c).flushed 2 t = ((cfg1.win 2).blk t).view.read (Elt Ideal) (reluDot (V c main_v31) (V c main_v2)) := by
  show (cfg1.win 2).cut (grid1.coords t) ((dat1 V c).after 2 t) = _
  rw [after1_2]
  unfold out1_2
  rw [View.canon_unit_zero zero_offsets]
  simp only [View.ld_unit_zero (S := S20000x128) zero_offsets, View.ld_unit_zero (S := S128x64) zero_offsets]
  obtain ⟨e0, e1, e2, e3, e4, e5⟩ := idx_facts t
  funext j
  exact tile_apply (V c main_v31) (V c main_v2) (((cfg1.win 0).blk t).view.emb) (((cfg1.win 1).blk t).view.emb)
    (((cfg1.win 2).blk t).view.emb) (t.val * 20000)
    (fun y => by show win1_0.index t (0 : Fin 2) * 20000 + 1 * (y 0).val = _; omega)
    (fun y => by show win1_0.index t (1 : Fin 2) * 128 + 1 * (y 1).val = _; omega)
    (fun y => by show win1_1.index t (0 : Fin 2) * 128 + 1 * (y 0).val = _; omega)
    (fun y => by show win1_1.index t (1 : Fin 2) * 64 + 1 * (y 1).val = _; omega)
    (fun y => by show win1_2.index t (0 : Fin 2) * 20000 + 1 * (y 0).val = _; omega)
    (fun y => by show win1_2.index t (1 : Fin 2) * 64 + 1 * (y 1).val = _; omega) j

/-- An index of the output array is in point `t`'s block iff each coordinate is in the block's range on its axis. -/
theorem mem_blk (t : Fin cfg1.N) (i : S1000000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v32).slice (win1_2.rect t)).set ↔ _
  rw [View.set_slice_whole, Rect.mem_set_unit]
  exact Iff.rfl

/-- Every row of the output lies in the block of the point `row / 20000`. -/
theorem cover (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  have hN : grid1.N = 50 := N_1
  obtain ⟨t, ht⟩ : ∃ t : Fin cfg1.N, t.val = (i 0).val / 20000 := ⟨⟨(i 0).val / 20000, by show _ < grid1.N; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-- THE OUTPUT ARRAY after the region: the whole-array function of the operand arrays as the region finds them. -/
theorem final (c : Dev nD) : (dat1 V c).arrAt 2 cfg1.N = reluDot (V c main_v31) (V c main_v2) :=
  (dat1 V c).arrAt_eq_of_cover 2 _ (fun t _ => flushed_eq V c t) cover

end Cert.KernelIdeal.Tiles1

end
-- ==== Proof.ResultValue.lean ====
/-
  The idealized kernel's result as the reference's function of the launched arguments.

  The program is: host gathers (each edge's relation embedding row; for each triangle the rows of its two body
  edges, joined), region 0 (row blocks times the message weight, maximum with zero), a host scatter-add of the
  messages onto their head edges, a join with the edge rows, region 1 (row blocks times the update weight, maximum
  with zero). Every change of float format in it is the identity at the ideal values, a tiled region leaves the ONE
  product of its whole operand (the region modules), and the host stretches between are the reference's own
  operations; so buffer by buffer the contents are the reference's stages, and the result is its last stage.
-/
import proofs.«155682_j11003706213189_1_alg».proof.Proof.Region0Value
import proofs.«155682_j11003706213189_1_alg».proof.Proof.Region1Value
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays as launched. -/
abbrev A0 : (⟨Cert.ReferenceIdeal.S50x64, .f32⟩ : BufTy).Contents (Elt Ideal) := m ((c.tc : Thread nD τ).loc main_arg0)
abbrev A1 : (⟨Cert.ReferenceIdeal.S128x64, .f32⟩ : BufTy).Contents (Elt Ideal) := m ((c.tc : Thread nD τ).loc main_arg1)
abbrev A2 : (⟨Cert.ReferenceIdeal.S128x64, .f32⟩ : BufTy).Contents (Elt Ideal) := m ((c.tc : Thread nD τ).loc main_arg2)
abbrev A5 : (⟨Cert.ReferenceIdeal.S1000000, .i32⟩ : BufTy).Contents (Elt Ideal) := m ((c.tc : Thread nD τ).loc main_arg5)
abbrev A6 : (⟨Cert.ReferenceIdeal.S2000000, .i32⟩ : BufTy).Contents (Elt Ideal) := m ((c.tc : Thread nD τ).loc main_arg6)
abbrev A7 : (⟨Cert.ReferenceIdeal.S2000000, .i32⟩ : BufTy).Contents (Elt Ideal) := m ((c.tc : Thread nD τ).loc main_arg7)
abbrev A8 : (⟨Cert.ReferenceIdeal.S2000000, .i32⟩ : BufTy).Contents (Elt Ideal) := m ((c.tc : Thread nD τ).loc main_arg8)

/-! ## The host stretches, read at the buffers the regions and the second stretch take

At the ideal values a change of float format is the identity, so each buffer the first stretch writes holds the
reference's stage of the same name-free description: the per-edge embedding rows, the per-triangle pair rows. -/

set_option maxHeartbeats 2000000 in
/-- Region 0's weight operand is the message weight as launched (its change of format is the identity). -/
theorem weight0 : (V1 m ρ c main_v1 : (⟨Cert.ReferenceIdeal.S128x64, .f32⟩ : BufTy).Contents (Elt Ideal)) = A1 m c := by
  show StableHlo.after hostOps0 (W0 m ρ c) (Proc.devRef .tc main_v1) = _
  after_results_simp
  rfl

set_option maxHeartbeats 2000000 in
/-- Region 0's row operand: for each triangle the embedding rows of its two body edges side by side. -/
theorem pair_rows : (V1 m ρ c main_v24 : (⟨Cert.ReferenceIdeal.S2000000x128, .f32⟩ : BufTy).Contents (Elt Ideal))
    = Cert.ReferenceIdeal.Read.val_main_v21 (F := Ideal) (A0 m c) (A5 m c) (A6 m c) (A7 m c) := by
  show StableHlo.after hostOps0 (W0 m ρ c) (Proc.devRef .tc main_v24) = _
  after_results_simp
  rfl

set_option maxHeartbeats 2000000 in
/-- The per-edge embedding rows, untouched by region 0. -/
theorem edge_rows : (W2 m ρ c (Proc.devRef .tc main_v9) : (⟨Cert.ReferenceIdeal.S1000000x64, .f32⟩ : BufTy).Contents (Elt Ideal))
    = Cert.ReferenceIdeal.Read.val_main_v6 (F := Ideal) (A0 m c) (A5 m c) := by
  rw [W2_of_ne m ρ c main_v9 (by decide)]
  show StableHlo.after hostOps0 (W0 m ρ c) (Proc.devRef .tc main_v9) = _
  after_results_simp
  rfl

set_option maxHeartbeats 2000000 in
/-- The head-edge indices, as launched. -/
theorem head_idx : (W2 m ρ c (Proc.devRef .tc main_arg8) : (⟨Cert.ReferenceIdeal.S2000000, .i32⟩ : BufTy).Contents (Elt Ideal)) = A8 m c := by
  rw [W2_of_ne m ρ c main_arg8 (by decide)]
  show StableHlo.after hostOps0 (W0 m ρ c) (Proc.devRef .tc main_arg8) = _
  after_results_simp

set_option maxHeartbeats 2000000 in
/-- Region 1's weight operand is the update weight as launched. -/
theorem weight1 : (V3 m ρ c main_v2 : (⟨Cert.ReferenceIdeal.S128x64, .f32⟩ : BufTy).Contents (Elt Ideal)) = A2 m c := by
  show StableHlo.after hostOps1 (W2 m ρ c) (Proc.devRef .tc main_v2) = _
  after_results_simp
  rw [W2_of_ne m ρ c main_v2 (by decide)]
  show StableHlo.after hostOps0 (W0 m ρ c) (Proc.devRef .tc main_v2) = _
  after_results_simp
  rfl

/-! ## The regions' outputs -/

/-- Region 0 leaves the messages: the maximum with zero of the pair rows times the message weight. -/
theorem msg_rows : (W2 m ρ c (Proc.devRef .tc main_v25) : (⟨Cert.ReferenceIdeal.S2000000x64, .f32⟩ : BufTy).Contents (Elt Ideal))
    = Cert.ReferenceIdeal.Read.val_main_v23 (F := Ideal) (A0 m c) (A1 m c) (A5 m c) (A6 m c) (A7 m c) := by
  have h : W2 m ρ c (Proc.devRef .tc main_v25) = (dat0 (V1 m ρ) c).arrAt 2 cfg0.N := W2_arr m ρ c 2
  rw [h, Cert.KernelIdeal.Tiles0.final (V1 m ρ) c, pair_rows m ρ c, weight0 m ρ c]
  rfl

/-- At the ideal values narrowing a float format changes nothing. -/
theorem truncf_id {s : Shape} {φ ψ : FTy} (x : FVec Ideal s φ) (h : ψ.bits < φ.bits) : truncf ψ x h = x := rfl
/-- At the ideal values widening a float format changes nothing. -/
theorem extf_id {s : Shape} {φ ψ : FTy} (x : FVec Ideal s φ) (h : φ.bits < ψ.bits) : extf ψ x h = x := rfl

/-- Two `[1000000, 64]` arrays side by side. -/
def joinRows (a b : FVec Ideal S1000000x64 .bf16) : FVec Ideal S1000000x128 .bf16 :=
  concatenate S1000000x128 1 [⟨S1000000x64, a⟩, ⟨S1000000x64, b⟩] concatenates_S1000000x64_S1000000x64_S1000000x128_d1

set_option maxHeartbeats 2000000 in
/-- The second host stretch from any contents `G` of the buffers it reads: the edge rows beside the scatter-add, from
    zero, of the widened messages at the head-edge indices. -/
theorem upd_of (G : Valuation τ sig (Elt Ideal)) :
    StableHlo.after hostOps1 G (Proc.devRef .tc main_v31)
      = joinRows (G (Proc.devRef .tc main_v9))
          (truncf .bf16 (Host.scatterAdd scatter_S1000000x64_S2000000x1_S2000000x64_1_0_0_1
            (broadcastInDim S1000000x64 ![] bcast_S_S1000000x64 (constant S_ .f32 0x00000000#32))
            (broadcastInDim S2000000x1 ![0] bcast_S2000000_S2000000x1_0 (G (Proc.devRef .tc main_arg8)))
            (extf .f32 (G (Proc.devRef .tc main_v25)) bitsLt_bf16_f32)) bitsLt_bf16_f32) := by
  simp only [after_cons, after_nil]
  rw [binary_result]
  refine congrArg₂ joinRows ?_ ?_
  · after_results_simp
  · after_results_simp

/-- Region 1's row operand: each edge's embedding row beside the sum of the messages scattered onto it. -/
theorem upd_rows : (V3 m ρ c main_v31 : (⟨Cert.ReferenceIdeal.S1000000x128, .f32⟩ : BufTy).Contents (Elt Ideal))
    = Cert.ReferenceIdeal.Read.val_main_v27 (F := Ideal) (A0 m c) (A1 m c) (A5 m c) (A6 m c) (A7 m c) (A8 m c) := by
  show StableHlo.after hostOps1 (W2 m ρ c) (Proc.devRef .tc main_v31) = _
  rw [upd_of, edge_rows m ρ c, head_idx m ρ c, msg_rows m ρ c, truncf_id, extf_id]
  unfold joinRows Cert.ReferenceIdeal.Read.val_main_v27 Cert.ReferenceIdeal.Read.val_main_v26 Cert.ReferenceIdeal.Read.val_main_v24
    Cert.ReferenceIdeal.Read.val_main_v25 Cert.ReferenceIdeal.Read.val_main_cst
  rfl

/-- THE RESULT: region 1 leaves the maximum with zero of the update rows times the update weight, which is the
    reference's last stage of the launched arguments. -/
theorem result : (W4 m ρ c (Proc.devRef .tc main_v32) : (⟨Cert.ReferenceIdeal.S1000000x64, .f32⟩ : BufTy).Contents (Elt Ideal))
    = Cert.ReferenceIdeal.Read.val_main_v29 (F := Ideal) (A0 m c) (A1 m c) (A2 m c) (A5 m c) (A6 m c) (A7 m c) (A8 m c) := by
  have h : W4 m ρ c (Proc.devRef .tc main_v32) = (dat1 (V3 m ρ) c).arrAt 2 cfg1.N := W4_arr m ρ c 2
  rw [h, Cert.KernelIdeal.Tiles1.final (V3 m ρ) c, upd_rows m ρ c, weight1 m ρ c]
  rfl

end Cert.KernelIdeal.ResultValue

end
-- ==== Proof.lean ====
/-
  The certificate of a message-passing layer over triangles of edges, against its plain reference.

  The kernel gathers each edge's relation embedding row and, for each triangle, the rows of its two body edges side by
  side; a tiled region multiplies these pair rows, forty thousand at a time, with the message weight and takes the
  maximum with zero; the host scatter-adds the messages onto their head edges, joins the sums to the edge rows, and a
  second tiled region multiplies the joined rows, twenty thousand at a time, with the update weight and takes the
  maximum with zero. The reference does the same with two whole matrix products and no change of float format.

  At the ideal values a change of float format is the identity, and a block of rows times a weight is the same rows of
  the whole product (entry `(p, q)` of either is `∑ k, X (p, k) · W (k, q)`), the blocks covering every row. So each
  region leaves the reference's product-then-maximum of its whole operand, the host operations between the regions are
  the reference's own, and the kernel's result is the reference's last stage of the launched arguments: equal, element
  by element, with no use of the arguments' finiteness (no distributivity, no cancelling: only the sums as they stand).
  The three frames are the generated ones (the reference's from its generated run); no rewrite was applied in printing
  the idealized kernel, so there is nothing to preserve.
-/
import proofs.«155682_j11003706213189_1_alg».proof.Defs
import proofs.«155682_j11003706213189_1_alg».proof.Proof.Gen.Kernel
import proofs.«155682_j11003706213189_1_alg».proof.Proof.Gen.Kernel.Skeleton
import proofs.«155682_j11003706213189_1_alg».proof.Proof.Gen.Kernel.Launch
import proofs.«155682_j11003706213189_1_alg».proof.Proof.Gen.Kernel.Points
import proofs.«155682_j11003706213189_1_alg».proof.Proof.Gen.Kernel.Frame
import proofs.«155682_j11003706213189_1_alg».proof.Proof.Gen.KernelIdeal
import proofs.«155682_j11003706213189_1_alg».proof.Proof.Gen.KernelIdeal.Skeleton
import proofs.«155682_j11003706213189_1_alg».proof.Proof.Gen.KernelIdeal.Launch
import proofs.«155682_j11003706213189_1_alg».proof.Proof.Gen.KernelIdeal.Points
import proofs.«155682_j11003706213189_1_alg».proof.Proof.Gen.KernelIdeal.Frame
import proofs.«155682_j11003706213189_1_alg».proof.Proof.Gen.ReferenceIdeal
import proofs.«155682_j11003706213189_1_alg».proof.Proof.Gen.Pre_finite_inputs
import proofs.«155682_j11003706213189_1_alg».proof.Proof.Gen.ReferenceIdeal.Run
import proofs.«155682_j11003706213189_1_alg».proof.Proof.Gen.ReferenceIdeal.Read
import proofs.«155682_j11003706213189_1_alg».proof.Proof.ResultRun
import proofs.«155682_j11003706213189_1_alg».proof.Proof.ResultValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.ResultValue in
/-- Both idealized programs end with the reference's last stage of the launched arguments: the kernel by its run with
    the result named and that result's value, the reference by its generated run read at arguments that agree. -/
theorem algebraic : Cert.algebraic_KernelIdeal_ReferenceIdeal := by
  intro m ρ m' ρ' _ hagree
  refine ⟨fun c => Cert.ReferenceIdeal.Read.val_main_v29 (F := Ideal) (A0 m c) (A1 m c) (A2 m c) (A5 m c) (A6 m c) (A7 m c) (A8 m c), ?_, ?_⟩
  · exact (θ_run Cert.KernelIdeal.defs _ _).mono
      (fun r h c => ⟨(h c).1.trans (Cert.KernelIdeal.ResultValue.result m ρ c), (h c).2⟩)
      (Cert.KernelIdeal.ResultRun.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.2.2.1, (hagree c).2.2.2.2.2.2.1,
      (hagree c).2.2.2.2.2.2.2.1, (hagree c).2.2.2.2.2.2.2.2]
    exact Cert.ReferenceIdeal.Read.val_main_v29_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
